-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S1600000 .f32) (main_arg3 : FVec F S64x128 .f32) (main_arg4 : FVec F S64 .f32) (main_arg5 : FVec F S64x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1650000x64 : Shape := ⟨2, ![1650000, 64]⟩

abbrev nBuf : Space → Nat
  | .hbm => 89
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S128x64, .f32⟩
  | .hbm, ⟨50, _⟩ => ⟨S64x64, .f32⟩
  | .hbm, ⟨51, _⟩ => ⟨S1x64, .f32⟩
  | .hbm, ⟨52, _⟩ => ⟨S1x64, .f32⟩
  | .hbm, ⟨53, _⟩ => ⟨S50000x64, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000x64, .f32⟩
  | .hbm, ⟨63, _⟩ => ⟨S1650000x1, .f32⟩
  | .hbm, ⟨64, _⟩ => ⟨S1650000x64, .f32⟩
  | .hbm, ⟨65, _⟩ => ⟨S1650000x64, .f32⟩
  | .hbm, ⟨66, _⟩ => ⟨S_, .f32⟩
  | .hbm, ⟨67, _⟩ => ⟨S50000x64, .f32⟩
  | .hbm, ⟨68, _⟩ => ⟨S1650000x1, .i32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S1650000, .i32⟩
  | .hbm, ⟨74, _⟩ => ⟨S1650000, .i1⟩
  | .hbm, ⟨75, _⟩ => ⟨S_, .i32⟩
  | .hbm, ⟨76, _⟩ => ⟨S1650000, .i32⟩
  | .hbm, ⟨77, _⟩ => ⟨S1650000, .i32⟩
  | .hbm, ⟨78, _⟩ => ⟨S1650000, .i32⟩
  | .hbm, ⟨79, _⟩ => ⟨S1650000x1, .i32⟩
  | .hbm, ⟨80, _⟩ => ⟨S1650000x64, .f32⟩
  | .hbm, ⟨81, _⟩ => ⟨S1650000x1, .f32⟩
  | .hbm, ⟨82, _⟩ => ⟨S1650000x64, .f32⟩
  | .hbm, ⟨83, _⟩ => ⟨S1650000x64, .f32⟩
  | .hbm, ⟨84, _⟩ => ⟨S_, .f32⟩
  | .hbm, ⟨85, _⟩ => ⟨S50000x64, .f32⟩
  | .hbm, ⟨86, _⟩ => ⟨S1650000x1, .i32⟩
  | .hbm, ⟨87, _⟩ => ⟨S50000x64, .f32⟩
  | .hbm, ⟨88, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  transposes_S64x128_S128x64_1_0 : S64x128.Transposes [1, 0] S128x64
  transposes_S64x64_S64x64_1_0 : S64x64.Transposes [1, 0] S64x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S64x128 : Shape := ⟨2, ![64, 128]⟩
abbrev S64 : Shape := ⟨1, ![64]⟩
abbrev S64x64 : Shape := ⟨2, ![64, 64]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S128x64 : Shape := ⟨2, ![128, 64]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S128x64, .f32⟩
  | .hbm, ⟨50, _⟩ => ⟨S50000x64, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x64, .f32⟩
  | .hbm, ⟨60, _⟩ => ⟨S1650000x1, .f32⟩
  | .hbm, ⟨61, _⟩ => ⟨S1650000x64, .f32⟩
  | .hbm, ⟨62, _⟩ => ⟨S1650000x64, .f32⟩
  | .hbm, ⟨63, _⟩ => ⟨S_, .f32⟩
  | .hbm, ⟨64, _⟩ => ⟨S50000x64, .f32⟩
  | .hbm, ⟨65, _⟩ => ⟨S1650000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000, .f32⟩
  | .hbm, ⟨75, _⟩ => ⟨S1650000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .i1⟩
  | .hbm, ⟨80, _⟩ => ⟨S50000, .f32⟩
  | .hbm, ⟨81, _⟩ => ⟨S_, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .i32⟩
  | .hbm, ⟨86, _⟩ => ⟨S1650000, .i32⟩
  | .hbm, ⟨87, _⟩ => ⟨S1650000, .i1⟩
  | .hbm, ⟨88, _⟩ => ⟨S_, .i32⟩
  | .hbm, ⟨89, _⟩ => ⟨S1650000, .i32⟩
  | .hbm, ⟨90, _⟩ => ⟨S1650000, .i32⟩
  | .hbm, ⟨91, _⟩ => ⟨S1650000, .i32⟩
  | .hbm, ⟨92, _⟩ => ⟨S1650000x1, .i32⟩
  | .hbm, ⟨93, _⟩ => ⟨S1650000, .f32⟩
  | .hbm, ⟨94, _⟩ => ⟨S1650000, .f32⟩
  | .hbm, ⟨95, _⟩ => ⟨S_, .i32⟩
  | .hbm, ⟨96, _⟩ => ⟨S1650000, .i32⟩
  | .hbm, ⟨97, _⟩ => ⟨S1650000, .i1⟩
  | .hbm, ⟨98, _⟩ => ⟨S_, .i32⟩
  | .hbm, ⟨99, _⟩ => ⟨S1650000, .i32⟩
  | .hbm, ⟨100, _⟩ => ⟨S1650000, .i32⟩
  | .hbm, ⟨101, _⟩ => ⟨S1650000, .i32⟩
  | .hbm, ⟨102, _⟩ => ⟨S1650000x1, .i32⟩
  | .hbm, ⟨103, _⟩ => ⟨S1650000, .f32⟩
  | .hbm, ⟨104, _⟩ => ⟨S1650000, .f32⟩
  | .hbm, ⟨105, _⟩ => ⟨S64x64, .f32⟩
  | .hbm, ⟨106, _⟩ => ⟨S50000x64, .f32⟩
  | .hbm, ⟨107, _⟩ => ⟨S_, .i32⟩
  | .hbm, ⟨108, _⟩ => ⟨S1650000, .i32⟩
  | .hbm, ⟨109, _⟩ => ⟨S1650000, .i1⟩
  | .hbm, ⟨110, _⟩ => ⟨S_, .i32⟩
  | .hbm, ⟨111, _⟩ => ⟨S1650000, .i32⟩
  | .hbm, ⟨112, _⟩ => ⟨S1650000, .i32⟩
  | .hbm, ⟨113, _⟩ => ⟨S1650000, .i32⟩
  | .hbm, ⟨114, _⟩ => ⟨S1650000x1, .i32⟩
  | .hbm, ⟨115, _⟩ => ⟨S1650000x64, .f32⟩
  | .hbm, ⟨116, _⟩ => ⟨S1650000x1, .f32⟩
  | .hbm, ⟨117, _⟩ => ⟨S1650000x64, .f32⟩
  | .hbm, ⟨118, _⟩ => ⟨S1650000x64, .f32⟩
  | .hbm, ⟨119, _⟩ => ⟨S_, .f32⟩
  | .hbm, ⟨120, _⟩ => ⟨S50000x64, .f32⟩
  | .hbm, ⟨121, _⟩ => ⟨S1650000x1, .i32⟩
  | .hbm, ⟨122, _⟩ => ⟨S50000x64, .f32⟩
  | .hbm, ⟨123, _⟩ => ⟨S1x64, .f32⟩
  | .hbm, ⟨124, _⟩ => ⟨S50000x64, .f32⟩
  | .hbm, ⟨125, _⟩ => ⟨S50000x64, .f32⟩
  | .hbm, ⟨126, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  transposes_S64x128_S128x64_1_0 : S64x128.Transposes [1, 0] S128x64
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The two-layer graph convolution that both programs compute, cut into the pieces at which they differ.

  Both programs build the same edge lists (every edge's source and destination node, a self loop appended per
  node), the same edge weights and the same symmetric normalisation `nrm e = dinv (src e) · w e · dinv (dst e)`.
  A layer is then: a dense product `h · Wᵀ` of the node features, a weighted neighbour sum
  `agg h (v, ·) = ∑ over edges e into v of  h (src e, ·) · nrm e`, and a bias row added to every node.  After the first
  layer comes `max · 0`; after the second, the first layer's result is added back.

  The pieces here are stated over ANY node features, index lists and weights, so that each program's own
  intermediate arrays can be substituted: `agg` (one neighbour sum), `mm1` / `mm2` (the two dense products),
  `biasRelu` and `biasRes` (the two closing steps).  The reference's stages are these pieces composed
  (`ref_h1`, `ref_out`): its second computation of the normalisation is, operation for operation, its first.
-/
import proofs.«110453_j28509992911040_1_alg».proof.Proof.Gen.ReferenceIdeal.Read

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- An edge list as a column of gather indices: a negative node number wraps around by the node count. -/
def wrapCol (s : (⟨S1650000, .i32⟩ : BufTy).Contents (Elt F)) : (⟨S1650000x1, .i32⟩ : BufTy).Contents (Elt F) :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- One weighted neighbour sum: row `src e` of `h` scaled by `nrm e`, added into row `dst e` of a zero array. -/
def agg (h : (⟨S50000x64, .f32⟩ : BufTy).Contents (Elt F)) (src dst : (⟨S1650000, .i32⟩ : BufTy).Contents (Elt F))
    (nrm : (⟨S1650000, .f32⟩ : BufTy).Contents (Elt F)) : (⟨S50000x64, .f32⟩ : BufTy).Contents (Elt F) :=
  Host.scatterAdd scatter_S50000x64_S1650000x1_S1650000x64_1_0_0_1
    (broadcastInDim S50000x64 ![] bcast_S_S50000x64 (constant S_ .f32 0x00000000#32))
    (broadcastInDim S1650000x1 ![0] bcast_S1650000_S1650000x1_0 dst)
    (mulf (Host.gather gather_S50000x64_S1650000x1_S1650000x64_1_0_n_n_0_1_164 h (wrapCol src))
      (broadcastInDim S1650000x64 ![0, 1] bcast_S1650000x1_S1650000x64_0_1
        (broadcastInDim S1650000x1 ![0] bcast_S1650000_S1650000x1_0 nrm)))

/-- The first dense product: node features (128 wide) by the transposed first weight matrix. -/
def mm1 (x : (⟨S50000x128, .f32⟩ : BufTy).Contents (Elt F)) (wt : (⟨S128x64, .f32⟩ : BufTy).Contents (Elt F)) :
    (⟨S50000x64, .f32⟩ : BufTy).Contents (Elt F) :=
  Host.dotGeneral dot_S50000x128_S128x64_S50000x64_1_0_0_1_n_n none x wt

/-- The second dense product: hidden features (64 wide) by the transposed second weight matrix. -/
def mm2 (h : (⟨S50000x64, .f32⟩ : BufTy).Contents (Elt F)) (wt : (⟨S64x64, .f32⟩ : BufTy).Contents (Elt F)) :
    (⟨S50000x64, .f32⟩ : BufTy).Contents (Elt F) :=
  Host.dotGeneral dot_S50000x64_S64x64_S50000x64_1_0_0_1_n_n none h wt

/-- A bias vector as a row repeated for every node. -/
def biasRows (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

/-- The first layer's closing step: add the bias row, then the maximum with zero. -/
def biasRelu (a : (⟨S50000x64, .f32⟩ : BufTy).Contents (Elt F)) (b : (⟨S64, .f32⟩ : BufTy).Contents (Elt F)) :
    (⟨S50000x64, .f32⟩ : BufTy).Contents (Elt F) :=
  maximumf (addf a (biasRows b)) (broadcastInDim S50000x64 ![] bcast_S_S50000x64 (constant S_ .f32 0x00000000#32))

/-- The second layer's closing step: add the bias row, then add the first layer's result back. -/
def biasRes (a : (⟨S50000x64, .f32⟩ : BufTy).Contents (Elt F)) (b : (⟨S64, .f32⟩ : BufTy).Contents (Elt F))
    (h1 : (⟨S50000x64, .f32⟩ : BufTy).Contents (Elt F)) : (⟨S50000x64, .f32⟩ : BufTy).Contents (Elt F) :=
  addf (addf a (biasRows b)) h1

/-- The reference's first layer is the pieces composed. -/
theorem ref_h1 (x0 : (⟨S50000x128, .f32⟩ : BufTy).Contents (Elt F)) (x1 : (⟨S2x1600000, .i32⟩ : BufTy).Contents (Elt F))
    (x2 : (⟨S1600000, .f32⟩ : BufTy).Contents (Elt F)) (x3 : (⟨S64x128, .f32⟩ : BufTy).Contents (Elt F))
    (x4 : (⟨S64, .f32⟩ : BufTy).Contents (Elt F)) :
    val_main_v50 (F := F) x0 x1 x2 x3 x4
      = biasRelu (agg (mm1 x0 (val_main_v32 (F := F) x3)) (val_main_v3 (F := F) x1) (val_main_v6 (F := F) x1)
          (val_main_v31 (F := F) x1 x2)) x4 := rfl

/-- The reference computes the edge normalisation a second time, from the same edge lists and weights by the same
    operations: the same array. -/
theorem ref_nrm_again (x1 : (⟨S2x1600000, .i32⟩ : BufTy).Contents (Elt F)) (x2 : (⟨S1600000, .f32⟩ : BufTy).Contents (Elt F)) :
    val_main_v73 (F := F) x1 x2 = val_main_v31 (F := F) x1 x2 := rfl

/-- The reference's result is the pieces composed, the second layer over the first layer's result. -/
theorem ref_out (x0 : (⟨S50000x128, .f32⟩ : BufTy).Contents (Elt F)) (x1 : (⟨S2x1600000, .i32⟩ : BufTy).Contents (Elt F))
    (x2 : (⟨S1600000, .f32⟩ : BufTy).Contents (Elt F)) (x3 : (⟨S64x128, .f32⟩ : BufTy).Contents (Elt F))
    (x4 : (⟨S64, .f32⟩ : BufTy).Contents (Elt F)) (x5 : (⟨S64x64, .f32⟩ : BufTy).Contents (Elt F))
    (x6 : (⟨S64, .f32⟩ : BufTy).Contents (Elt F)) :
    val_main_v92 (F := F) x0 x1 x2 x3 x4 x5 x6
      = biasRes (agg (mm2 (val_main_v50 (F := F) x0 x1 x2 x3 x4) (val_main_v74 (F := F) x5)) (val_main_v3 (F := F) x1)
          (val_main_v6 (F := F) x1) (val_main_v31 (F := F) x1 x2)) x6 (val_main_v50 (F := F) x0 x1 x2 x3 x4) := rfl

end Cert.Spec

end
-- ==== Proof.KernelRun.lean ====
/-
  The idealized kernel's run with its result named.

  The program is nine segments: three stretches of host operations, the first dense product, a stretch (the first
  neighbour sum), the bias-and-maximum step, the second dense product, a stretch (the second neighbour sum), and the
  bias-and-residual step.  Every weakly fair execution runs them in order; the contents of the core's buffers at the
  nine boundaries are a fold from the launch memory, and at the end every unscoped buffer holds the last boundary's
  contents.  Read at the result buffer this names the program's result as the last boundary's contents there; read
  at an argument buffer it gives the launch contents back.
-/
import proofs.«110453_j28509992911040_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the last boundary's contents
    and every argument array as launched. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Named

end
-- ==== Proof.Assembly.lean ====
/-
  The idealized kernel's result is the reference's function of the arguments.

  Walk the fold of the buffer contents back from the result.  The last region leaves, in the result array, the bias
  row and the first layer's result added to the second neighbour sum; that sum is taken, over the edge lists and the
  normalisation the host prefix computed, of the second dense product; the product is of the first layer's result
  and the transposed second weight matrix; and the first layer's result is, in the same way, the maximum with zero of
  the first neighbour sum of the first dense product plus its bias row.  Every step is one equation between
  boundary contents, taken here as a hypothesis (each is proved where its mathematics lives: the regions' block
  arithmetic, the host stretches read back); composed, they are the pieces of the specification composed, which is how
  the reference's stages compose.
-/
import proofs.«110453_j28509992911040_1_alg».proof.Proof.Gen.KernelIdeal.Frame
import proofs.«110453_j28509992911040_1_alg».proof.Proof.Spec

set_option maxRecDepth 16384

noncomputable section

namespace Cert.KernelIdeal.Assembly

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The first layer's result, as region 1 leaves it: the reference's first-layer stage of the arguments. -/
theorem first_layer
    (hmm1 : (dat0 (F := Ideal) (V3 m ρ) c).arrAt 2 cfg0.N
      = Cert.Spec.mm1 (F := Ideal) (W3 m ρ c (Proc.devRef .tc main_arg0)) (W3 m ρ c (Proc.devRef .tc main_v32)))
    (hrelu : (dat1 (F := Ideal) (V5 m ρ) c).arrAt 2 cfg1.N
      = Cert.Spec.biasRelu (F := Ideal) (W5 m ρ c (Proc.devRef .tc main_v49)) (m ((c : Thread nD τ).loc main_arg4)))
    (h3_arg0 : W3 m ρ c (Proc.devRef .tc main_arg0) = m ((c : Thread nD τ).loc main_arg0))
    (h3_v32 : W3 m ρ c (Proc.devRef .tc main_v32) = Cert.ReferenceIdeal.Read.val_main_v32 (F := Ideal) (m ((c : Thread nD τ).loc main_arg3)))
    (h4_v3 : W4 m ρ c (Proc.devRef .tc main_v3) = Cert.ReferenceIdeal.Read.val_main_v3 (F := Ideal) (m ((c : Thread nD τ).loc main_arg1)))
    (h4_v6 : W4 m ρ c (Proc.devRef .tc main_v6) = Cert.ReferenceIdeal.Read.val_main_v6 (F := Ideal) (m ((c : Thread nD τ).loc main_arg1)))
    (h4_v31 : W4 m ρ c (Proc.devRef .tc main_v31) = Cert.ReferenceIdeal.Read.val_main_v31 (F := Ideal) (m ((c : Thread nD τ).loc main_arg1)) (m ((c : Thread nD τ).loc main_arg2)))
    (h5_v49 : W5 m ρ c (Proc.devRef .tc main_v49) = Cert.Spec.agg (F := Ideal) (W4 m ρ c (Proc.devRef .tc main_v36)) (W4 m ρ c (Proc.devRef .tc main_v3)) (W4 m ρ c (Proc.devRef .tc main_v6)) (W4 m ρ c (Proc.devRef .tc main_v31))) :
    W6 m ρ c (Proc.devRef .tc main_v50)
      = Cert.ReferenceIdeal.Read.val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have e4 : W4 m ρ c (Proc.devRef .tc main_v36) = (dat0 (F := Ideal) (V3 m ρ) c).arrAt 2 cfg0.N := W4_arr m ρ c 2
  have e6 : W6 m ρ c (Proc.devRef .tc main_v50) = (dat1 (F := Ideal) (V5 m ρ) c).arrAt 2 cfg1.N := W6_arr m ρ c 2
  rw [e6, hrelu, h5_v49, e4, hmm1, h3_arg0, h3_v32, h4_v3, h4_v6, h4_v31]
  exact (Cert.Spec.ref_h1 (F := Ideal) _ _ _ _ _).symm

/-- The result, as region 3 leaves it: the reference's result stage of the arguments. -/
theorem result
    (hfirst : W6 m ρ c (Proc.devRef .tc main_v50)
      = Cert.ReferenceIdeal.Read.val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4)))
    (hmm2 : (dat2 (F := Ideal) (V6 m ρ) c).arrAt 2 cfg2.N
      = Cert.Spec.mm2 (F := Ideal) (W6 m ρ c (Proc.devRef .tc main_v50)) (W6 m ρ c (Proc.devRef .tc main_v33)))
    (hres : (dat3 (F := Ideal) (V8 m ρ) c).arrAt 3 cfg3.N
      = Cert.Spec.biasRes (F := Ideal) (W8 m ρ c (Proc.devRef .tc main_v64)) (m ((c : Thread nD τ).loc main_arg6)) (W8 m ρ c (Proc.devRef .tc main_v50)))
    (h6_v33 : W6 m ρ c (Proc.devRef .tc main_v33) = Cert.ReferenceIdeal.Read.val_main_v74 (F := Ideal) (m ((c : Thread nD τ).loc main_arg5)))
    (h7_v3 : W7 m ρ c (Proc.devRef .tc main_v3) = Cert.ReferenceIdeal.Read.val_main_v3 (F := Ideal) (m ((c : Thread nD τ).loc main_arg1)))
    (h7_v6 : W7 m ρ c (Proc.devRef .tc main_v6) = Cert.ReferenceIdeal.Read.val_main_v6 (F := Ideal) (m ((c : Thread nD τ).loc main_arg1)))
    (h7_v31 : W7 m ρ c (Proc.devRef .tc main_v31) = Cert.ReferenceIdeal.Read.val_main_v31 (F := Ideal) (m ((c : Thread nD τ).loc main_arg1)) (m ((c : Thread nD τ).loc main_arg2)))
    (h8_v64 : W8 m ρ c (Proc.devRef .tc main_v64) = Cert.Spec.agg (F := Ideal) (W7 m ρ c (Proc.devRef .tc main_v51)) (W7 m ρ c (Proc.devRef .tc main_v3)) (W7 m ρ c (Proc.devRef .tc main_v6)) (W7 m ρ c (Proc.devRef .tc main_v31)))
    (h8_v50 : W8 m ρ c (Proc.devRef .tc main_v50) = W6 m ρ c (Proc.devRef .tc main_v50)) :
    W9 m ρ c (Proc.devRef .tc main_v65)
      = Cert.ReferenceIdeal.Read.val_main_v92 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have e7 : W7 m ρ c (Proc.devRef .tc main_v51) = (dat2 (F := Ideal) (V6 m ρ) c).arrAt 2 cfg2.N := W7_arr m ρ c 2
  have e9 : W9 m ρ c (Proc.devRef .tc main_v65) = (dat3 (F := Ideal) (V8 m ρ) c).arrAt 3 cfg3.N := W9_arr m ρ c 3
  rw [e9, hres, h8_v64, h8_v50, e7, hmm2, h6_v33, h7_v3, h7_v6, h7_v31, hfirst]
  exact (Cert.Spec.ref_out (F := Ideal) _ _ _ _ _ _ _).symm

end Cert.KernelIdeal.Assembly

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegionMatmul.lean ====
/-
  The two dense-product regions, read as whole arrays on the extended reals.

  Each region walks 10 row blocks of 5000 nodes.  At a point it holds one block of the node features (all of
  its columns) and the whole transposed weight matrix, and leaves in the output block the matrix-unit product
  of the two into a zero accumulator.  On the extended reals a change of format is the identity, so element
  `(p, q)` of that block is `∑ k, x (p, k) · w (k, q)`; a block's element `(p, q)` at the point with block
  index `b` is the array's element `(b · 5000 + p, q)`, for the features and for the output alike, so what the
  point writes back is its block of the host's `dot_general` of the two whole arrays.  The 10 blocks fill the
  output array (row `r` lies in block `r / 5000`), so after the region the output array IS that product.
  Both statements are at the region's entry contents `V`, whatever they are.
-/
import proofs.«110453_j28509992911040_1_alg».proof.Proof.Gen.KernelIdeal.Frame
import proofs.«110453_j28509992911040_1_alg».proof.Proof.Spec
import proofs.«110453_j28509992911040_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.RegionMatmul

open Cert.KernelIdeal Cert.KernelIdeal.Gen Idealize.ShloMosaic Idealize.ShloMosaic.TcCoe Idealize.SL.Sem
open Idealize.ShloMosaic.Pipeline (Dat)

/-- The zero offsets of a whole-buffer access, as the constant function. -/
theorem hz : (![0, 0] : Fin 2 → Nat) = fun _ => 0 := funext fun a => by fin_cases a <;> rfl

/-! ## One element of a product -/

/-- An element of the first body's result: the contraction over the 128 feature columns. -/
theorem pay0_apply (x0 : Vec Ideal S5000x128 .f32) (x1 : Vec Ideal S128x64 .f32) (p : Fin 5000) (q : Fin 64) :
    k0_pay1 (F := Ideal) x0 x1 (ValueIdx.ix2 p q) = ∑ k : Fin 128, x0 (ValueIdx.ix2 p k) * x1 (ValueIdx.ix2 k q) := by
  unfold k0_pay1
  refine (Cert.PlainDot.matmul_zero_apply 5000 128 64 none _ _ _).trans ?_
  rw [shapeCast_self]
  rfl

/-- An element of the second body's result: the contraction over the 64 hidden columns. -/
theorem pay2_apply (x0 : Vec Ideal S5000x64 .f32) (x1 : Vec Ideal S64x64 .f32) (p : Fin 5000) (q : Fin 64) :
    k2_pay1 (F := Ideal) x0 x1 (ValueIdx.ix2 p q) = ∑ k : Fin 64, x0 (ValueIdx.ix2 p k) * x1 (ValueIdx.ix2 k q) := by
  unfold k2_pay1
  refine (Cert.PlainDot.matmul_zero_apply 5000 64 64 none _ _ _).trans ?_
  rw [shapeCast_self, shapeCast_self]
  rfl

/-- An element of the first whole-array product. -/
theorem mm1_apply (x : (⟨Cert.ReferenceIdeal.S50000x128, .f32⟩ : BufTy).Contents (Elt Ideal))
    (w : (⟨Cert.ReferenceIdeal.S128x64, .f32⟩ : BufTy).Contents (Elt Ideal)) (p : Fin 50000) (q : Fin 64) :
    Cert.Spec.mm1 (F := Ideal) x w (ValueIdx.ix2 p q) = ∑ k : Fin 128, x (ValueIdx.ix2 p k) * w (ValueIdx.ix2 k q) := by
  unfold Cert.Spec.mm1
  simp only [Host.dotGeneral]
  exact Cert.PlainDot.dotGeneral_apply 50000 128 64 _ _ _ _ _

/-- An element of the second whole-array product. -/
theorem mm2_apply (x : (⟨Cert.ReferenceIdeal.S50000x64, .f32⟩ : BufTy).Contents (Elt Ideal))
    (w : (⟨Cert.ReferenceIdeal.S64x64, .f32⟩ : BufTy).Contents (Elt Ideal)) (p : Fin 50000) (q : Fin 64) :
    Cert.Spec.mm2 (F := Ideal) x w (ValueIdx.ix2 p q) = ∑ k : Fin 64, x (ValueIdx.ix2 p k) * w (ValueIdx.ix2 k q) := by
  unfold Cert.Spec.mm2
  simp only [Host.dotGeneral]
  exact Cert.PlainDot.dotGeneral_apply 50000 64 64 _ _ _ _ _

/-- Blocks that hold row `r` of the features (as their row `p`) and column `q'` of the weights (as their column `q`)
    give, at `(p, q)`, the whole product's element `(r, q')`. -/
theorem point0 (x0 : Vec Ideal S5000x128 .f32) (x1 : Vec Ideal S128x64 .f32)
    (A : (⟨Cert.ReferenceIdeal.S50000x128, .f32⟩ : BufTy).Contents (Elt Ideal))
    (B : (⟨Cert.ReferenceIdeal.S128x64, .f32⟩ : BufTy).Contents (Elt Ideal))
    (p : Fin 5000) (q : Fin 64) (r : Fin 50000) (q' : Fin 64)
    (h0 : ∀ k : Fin 128, x0 (ValueIdx.ix2 p k) = A (ValueIdx.ix2 r k))
    (h1 : ∀ k : Fin 128, x1 (ValueIdx.ix2 k q) = B (ValueIdx.ix2 k q')) :
    k0_pay1 (F := Ideal) x0 x1 (ValueIdx.ix2 p q) = Cert.Spec.mm1 (F := Ideal) A B (ValueIdx.ix2 r q') := by
  rw [pay0_apply, mm1_apply]
  exact Finset.sum_congr rfl fun k _ => by rw [h0 k, h1 k]

variable (V : (c : Dev nD) → (b : Ref sig .tc) → Buf (Elt Ideal) ((c : Thread nD τ).loc b))

/-! ## The first product: 10 row blocks of 5000 -/

/-- The index maps over the grid: the feature block moves with the output block down the rows and spans
    all 128 columns; the weight matrix is one block; the output block spans all 64 columns. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 10 row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What a point writes back is its block of the whole product. -/
theorem flushed0_eq (c : Dev nD) (t : Fin cfg0.N) :
    (dat0 (F := Ideal) V c).flushed 2 t
      = ((cfg0.win 2).blk t).view.read (Elt Ideal) (Cert.Spec.mm1 (F := Ideal) (V c main_arg0) (V c main_v32)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  obtain ⟨e00, e01, e10, e11, e21⟩ := idx_facts0 t
  obtain ⟨p, q, rfl⟩ : ∃ (p : Fin 5000) (q : Fin 64), j = ValueIdx.ix2 p q := ⟨j 0, j 1, ValueIdx.eq_ix2 j⟩
  show k0_pay1 (F := Ideal) (iblk0 V c 0 t) (iblk0 V c 1 t) (ValueIdx.ix2 p q)
    = Cert.Spec.mm1 (F := Ideal) (V c main_arg0) (V c main_v32) (((cfg0.win 2).blk t).view.emb (ValueIdx.ix2 p q))
  rw [ValueIdx.eq_ix2 (((cfg0.win 2).blk t).view.emb (ValueIdx.ix2 p q))]
  refine point0 (iblk0 V c 0 t) (iblk0 V c 1 t) (V c main_arg0) (V c main_v32) p q _ _ (fun k => ?_) (fun k => ?_)
  · show V c main_arg0 (((cfg0.win 0).blk t).view.emb (ValueIdx.ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_v32 (((cfg0.win 1).blk t).view.emb (ValueIdx.ix2 k q)) = _
    refine congrArg (V c main_v32) ?_
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the product is in a point's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v36).slice (win0_2.rect t)).set ↔ _
  rw [View.set_slice_whole, Rect.mem_set_unit]
  exact Iff.rfl

/-- Row `r` of the product is in the block of point `r / 5000`: the blocks fill the array. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array holds the first dense product of the arrays the region found. -/
theorem arr0 (c : Dev nD) :
    (dat0 (F := Ideal) V c).arrAt 2 cfg0.N = Cert.Spec.mm1 (F := Ideal) (V c main_arg0) (V c main_v32) :=
  (dat0 V c).arrAt_eq_of_cover 2 _ (fun t _ => flushed0_eq V c t) cover0

/-! ## The second product: 10 row blocks of 5000 -/

/-- The same for the second product. -/
theorem point2 (x0 : Vec Ideal S5000x64 .f32) (x1 : Vec Ideal S64x64 .f32)
    (A : (⟨Cert.ReferenceIdeal.S50000x64, .f32⟩ : BufTy).Contents (Elt Ideal))
    (B : (⟨Cert.ReferenceIdeal.S64x64, .f32⟩ : BufTy).Contents (Elt Ideal))
    (p : Fin 5000) (q : Fin 64) (r : Fin 50000) (q' : Fin 64)
    (h0 : ∀ k : Fin 64, x0 (ValueIdx.ix2 p k) = A (ValueIdx.ix2 r k))
    (h1 : ∀ k : Fin 64, x1 (ValueIdx.ix2 k q) = B (ValueIdx.ix2 k q')) :
    k2_pay1 (F := Ideal) x0 x1 (ValueIdx.ix2 p q) = Cert.Spec.mm2 (F := Ideal) A B (ValueIdx.ix2 r q') := by
  rw [pay2_apply, mm2_apply]
  exact Finset.sum_congr rfl fun k _ => by rw [h0 k, h1 k]

/-- The index maps over the grid: the hidden-feature block moves with the output block down the rows and
    spans all 64 columns; the weight matrix is one block; the output block spans all 64 columns. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 10 row blocks is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- What a point writes back is its block of the whole product. -/
theorem flushed2_eq (c : Dev nD) (t : Fin cfg2.N) :
    (dat2 (F := Ideal) V c).flushed 2 t
      = ((cfg2.win 2).blk t).view.read (Elt Ideal) (Cert.Spec.mm2 (F := Ideal) (V c main_v50) (V c main_v33)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  funext j
  obtain ⟨e00, e01, e10, e11, e21⟩ := idx_facts2 t
  obtain ⟨p, q, rfl⟩ : ∃ (p : Fin 5000) (q : Fin 64), j = ValueIdx.ix2 p q := ⟨j 0, j 1, ValueIdx.eq_ix2 j⟩
  show k2_pay1 (F := Ideal) (iblk2 V c 0 t) (iblk2 V c 1 t) (ValueIdx.ix2 p q)
    = Cert.Spec.mm2 (F := Ideal) (V c main_v50) (V c main_v33) (((cfg2.win 2).blk t).view.emb (ValueIdx.ix2 p q))
  rw [ValueIdx.eq_ix2 (((cfg2.win 2).blk t).view.emb (ValueIdx.ix2 p q))]
  refine point2 (iblk2 V c 0 t) (iblk2 V c 1 t) (V c main_v50) (V c main_v33) p q _ _ (fun k => ?_) (fun k => ?_)
  · show V c main_v50 (((cfg2.win 0).blk t).view.emb (ValueIdx.ix2 p k)) = _
    refine congrArg (V c main_v50) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  · show V c main_v33 (((cfg2.win 1).blk t).view.emb (ValueIdx.ix2 k q)) = _
    refine congrArg (V c main_v33) ?_
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega

/-- An index of the product is in a point's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v51).slice (win2_2.rect t)).set ↔ _
  rw [View.set_slice_whole, Rect.mem_set_unit]
  exact Iff.rfl

/-- Row `r` of the product is in the block of point `r / 5000`: the blocks fill the array. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array holds the second dense product of the arrays the region found. -/
theorem arr2 (c : Dev nD) :
    (dat2 (F := Ideal) V c).arrAt 2 cfg2.N = Cert.Spec.mm2 (F := Ideal) (V c main_v50) (V c main_v33) :=
  (dat2 V c).arrAt_eq_of_cover 2 _ (fun t _ => flushed2_eq V c t) cover2

end Cert.KernelIdeal.RegionMatmul

end
-- ==== Proof.RegionBias.lean ====
/-
  The two pointwise regions of the two-layer graph convolution, each as one whole-array equation.

  The first pointwise region reads the first neighbour sum in ten row blocks of 5000 nodes and the bias as one row of 64
  columns, and writes, block by block, `max (agg + bias) 0`.  The second reads the second neighbour sum and the first
  layer's result in the same row blocks and its bias row, and writes `agg + bias + h1`.  For each region: what one grid
  point writes back is the matching block of the whole-array closing step (`Cert.Spec.biasRelu`, `Cert.Spec.biasRes`)
  of the arrays the region finds — index by index, the block's row `p` at point `t` is the array's row
  `5000 · t + p`, the columns never move, and the bias row is read at row `0` —; the ten blocks tile the output
  array (row `r` lies in block `r / 5000`); so the output array after the region is that closing step.

  Both are stated at any contents `V` of the core's buffers on entry, and for any bias vector `b` whose row form is
  what the region finds in its bias window.
-/
import proofs.«110453_j28509992911040_1_alg».proof.Proof.Gen.KernelIdeal.Frame
import proofs.«110453_j28509992911040_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBias

open Cert.KernelIdeal Cert.KernelIdeal.Gen Idealize.ShloMosaic Idealize.ShloMosaic.TcCoe Idealize.SL.Sem
open Idealize.ShloMosaic.Pipeline (Dat)
open Idealize.ShloMosaic.ValueIdx

/-! ## The blocks' operations and the whole-array closing steps, read at an index -/

/-- The zero offsets of a whole-block access, however spelt. -/
theorem hz : (![0, 0] : Fin 2 → Nat) = fun _ => 0 := funext fun a => by fin_cases a <;> rfl

/-- The first closing step's block, read at an index: the row block plus the bias row, then the maximum with zero. -/
theorem pay1_apply (bias : Vec Ideal S1x64 .f32) (a : Vec Ideal S5000x64 .f32) (p : Fin 5000) (q : Fin 64) :
    k1_pay1 (F := Ideal) bias a (ix2 p q)
      = FloatOps.maximumf (F := Ideal) (φ := .f32) (FloatOps.addf (F := Ideal) (φ := .f32) (a (ix2 p q)) (bias (ix2 (0 : Fin 1) q)))
          (FloatOps.ofBits (F := Ideal) .f32 0x00000000#32) := by
  unfold k1_pay1
  show FloatOps.maximumf (F := Ideal) (φ := .f32) (FloatOps.addf (F := Ideal) (φ := .f32)
      (shapeCast S5000x64 a shapeCasts_S5000x64_S5000x64 (ix2 p q))
      (broadcastTo (α := Ideal .f32) S5000x64 (shapeCast S1x64 bias shapeCasts_S1x64_S1x64) broadcasts_S1x64_S5000x64 (ix2 p q)))
      (FloatOps.ofBits (F := Ideal) .f32 0x00000000#32) = _
  rw [shapeCast_self, shapeCast_self, broadcastTo_1b_ab_apply]

/-- The second closing step's block, read at an index: the row block plus the bias row plus the first layer's block. -/
theorem pay3_apply (bias : Vec Ideal S1x64 .f32) (a h : Vec Ideal S5000x64 .f32) (p : Fin 5000) (q : Fin 64) :
    k3_pay1 (F := Ideal) bias a h (ix2 p q)
      = FloatOps.addf (F := Ideal) (φ := .f32) (FloatOps.addf (F := Ideal) (φ := .f32) (a (ix2 p q)) (bias (ix2 (0 : Fin 1) q))) (h (ix2 p q)) := by
  unfold k3_pay1
  show FloatOps.addf (F := Ideal) (φ := .f32) (FloatOps.addf (F := Ideal) (φ := .f32)
      (shapeCast S5000x64 a shapeCasts_S5000x64_S5000x64 (ix2 p q))
      (broadcastTo (α := Ideal .f32) S5000x64 (shapeCast S1x64 bias shapeCasts_S1x64_S1x64) broadcasts_S1x64_S5000x64 (ix2 p q)))
      (shapeCast S5000x64 h shapeCasts_S5000x64_S5000x64 (ix2 p q)) = _
  rw [shapeCast_self, shapeCast_self, shapeCast_self, broadcastTo_1b_ab_apply]

/-- The bias row repeated for every node, read at an index whose column is `q`: the bias at `q`. -/
theorem biasRows_apply (b : (⟨Cert.ReferenceIdeal.S64, .f32⟩ : BufTy).Contents (Elt Ideal)) (i : Cert.ReferenceIdeal.S50000x64.Idx)
    (q : Fin 64) (hq : (i 1).val = q.val) : Cert.Spec.biasRows (F := Ideal) b i = b (ix1 q) := by
  show Cert.ReferenceIdeal.Read.val_main_v48 (F := Ideal) b i = _
  rw [Cert.ReferenceIdeal.Read.val_main_v48_apply, Cert.ReferenceIdeal.Read.val_main_v47_apply]
  congr 1
  funext d; match d with | ⟨0, _⟩ => exact Fin.ext hq

/-- The first layer's closing step at an index whose column is `q`. -/
theorem biasRelu_apply (a : (⟨Cert.ReferenceIdeal.S50000x64, .f32⟩ : BufTy).Contents (Elt Ideal))
    (b : (⟨Cert.ReferenceIdeal.S64, .f32⟩ : BufTy).Contents (Elt Ideal)) (i : Cert.ReferenceIdeal.S50000x64.Idx)
    (q : Fin 64) (hq : (i 1).val = q.val) :
    Cert.Spec.biasRelu (F := Ideal) a b i
      = FloatOps.maximumf (F := Ideal) (φ := .f32) (FloatOps.addf (F := Ideal) (φ := .f32) (a i) (b (ix1 q)))
          (FloatOps.ofBits (F := Ideal) .f32 0x00000000#32) := by
  show FloatOps.maximumf (F := Ideal) (φ := .f32) (FloatOps.addf (F := Ideal) (φ := .f32) (a i) (Cert.Spec.biasRows (F := Ideal) b i))
      (Cert.ReferenceIdeal.Read.val_main_call1_v0 (F := Ideal) i) = _
  rw [biasRows_apply b i q hq, Cert.ReferenceIdeal.Read.val_main_call1_v0_apply]
  rfl

/-- The second layer's closing step at an index whose column is `q`. -/
theorem biasRes_apply (a : (⟨Cert.ReferenceIdeal.S50000x64, .f32⟩ : BufTy).Contents (Elt Ideal))
    (b : (⟨Cert.ReferenceIdeal.S64, .f32⟩ : BufTy).Contents (Elt Ideal))
    (h : (⟨Cert.ReferenceIdeal.S50000x64, .f32⟩ : BufTy).Contents (Elt Ideal)) (i : Cert.ReferenceIdeal.S50000x64.Idx)
    (q : Fin 64) (hq : (i 1).val = q.val) :
    Cert.Spec.biasRes (F := Ideal) a b h i
      = FloatOps.addf (F := Ideal) (φ := .f32) (FloatOps.addf (F := Ideal) (φ := .f32) (a i) (b (ix1 q))) (h i) := by
  show FloatOps.addf (F := Ideal) (φ := .f32) (FloatOps.addf (F := Ideal) (φ := .f32) (a i) (Cert.Spec.biasRows (F := Ideal) b i)) (h i) = _
  rw [biasRows_apply b i q hq]

section Regions
variable (V : (c : Dev nD) → (b : Ref sig .tc) → Buf (Elt Ideal) ((c : Thread nD τ).loc b))

/-! ## The first pointwise region: `max (agg + bias) 0` -/

/-- The index maps of the first pointwise region, decided over its ten points: the input rows move with the
    output rows, no window moves along the columns, the bias row never moves, and point `t` writes row block `t`. -/
theorem idx_facts1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` of the first pointwise region writes back is block `t` of the first layer's closing step of the
    arrays the region found. -/
theorem flushed1 (c : Dev nD) (b : (⟨Cert.ReferenceIdeal.S64, .f32⟩ : BufTy).Contents (Elt Ideal))
    (hb : ∀ q : Fin 64, V c main_v34 (ix2 (0 : Fin 1) q) = b (ix1 q)) (t : Fin cfg1.N) :
    (dat1 (F := Ideal) V c).flushed 2 t
      = ((cfg1.win 2).blk t).view.read (Elt Ideal) (Cert.Spec.biasRelu (F := Ideal) (V c main_v49) b) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts1 t
  funext j
  obtain ⟨p, q, rfl⟩ : ∃ (p : Fin 5000) (q : Fin 64), j = ix2 p q := ⟨j 0, j 1, eq_ix2 j⟩
  refine (pay1_apply (iblk1 V c 1 t) (iblk1 V c 0 t) p q).trans ?_
  have hq : ((((cfg1.win 2).blk t).view.emb (ix2 p q)) 1).val = q.val := by
    show win1_2.index t (1 : Fin 2) * 64 + 1 * q.val = q.val
    omega
  refine Eq.trans ?_ (biasRelu_apply (V c main_v49) b (((cfg1.win 2).blk t).view.emb (ix2 p q)) q hq).symm
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  show FloatOps.maximumf (F := Ideal) (φ := .f32) (FloatOps.addf (F := Ideal) (φ := .f32)
      (V c main_v49 (((cfg1.win 0).blk t).view.emb (ix2 p q))) (V c main_v34 (((cfg1.win 1).blk t).view.emb (ix2 (0 : Fin 1) q))))
      (FloatOps.ofBits (F := Ideal) .f32 0x00000000#32) = _
  rw [h0, h1, hb q]

/-- An index of the output array is in point `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v50).slice (win1_2.rect t)).set ↔ _
  rw [View.set_slice_whole, Rect.mem_set_unit]
  exact Iff.rfl

/-- Every row block is some point's. -/
theorem idx_onto1 : ∀ r : Fin 10, ∃ t : Fin cfg1.N, win1_2.index t = ![r.val, 0] :=
  (by decide +kernel : ∀ r : Fin 10, ∃ t : Fin grid1.N, win1_2.index t = ![r.val, 0])

/-- Row `r` of the output is in the block of the point that writes row block `r / 5000`: the ten blocks tile the array. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The first pointwise region leaves, in its output array, the first layer's closing step of the neighbour sum it
    found and of the bias whose row it found. -/
theorem arr1 (c : Dev nD) (b : (⟨Cert.ReferenceIdeal.S64, .f32⟩ : BufTy).Contents (Elt Ideal))
    (hb : ∀ q : Fin 64, V c main_v34 (ValueIdx.ix2 (0 : Fin 1) q) = b (ValueIdx.ix1 q)) :
    (dat1 (F := Ideal) V c).arrAt 2 cfg1.N = Cert.Spec.biasRelu (F := Ideal) (V c main_v49) b :=
  (dat1 (F := Ideal) V c).arrAt_eq_of_cover 2 (Cert.Spec.biasRelu (F := Ideal) (V c main_v49) b)
    (fun t _ => flushed1 V c b hb t) cover1

/-! ## The second pointwise region: `agg + bias + h1` -/

/-- The index maps of the second pointwise region, decided over its ten points: both row-block inputs move with
    the output rows, no window moves along the columns, the bias row never moves, and point `t` writes row block `t`. -/
theorem idx_facts3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0 :=
  (by decide +kernel : ∀ t : Fin grid3.N, _)

/-- What point `t` of the second pointwise region writes back is block `t` of the second layer's closing step of the
    arrays the region found. -/
theorem flushed3 (c : Dev nD) (b : (⟨Cert.ReferenceIdeal.S64, .f32⟩ : BufTy).Contents (Elt Ideal))
    (hb : ∀ q : Fin 64, V c main_v35 (ix2 (0 : Fin 1) q) = b (ix1 q)) (t : Fin cfg3.N) :
    (dat3 (F := Ideal) V c).flushed 3 t
      = ((cfg3.win 3).blk t).view.read (Elt Ideal) (Cert.Spec.biasRes (F := Ideal) (V c main_v64) b (V c main_v50)) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x64) hz]
  obtain ⟨e0, e1, e2, e3, e4, e5, e6⟩ := idx_facts3 t
  funext j
  obtain ⟨p, q, rfl⟩ : ∃ (p : Fin 5000) (q : Fin 64), j = ix2 p q := ⟨j 0, j 1, eq_ix2 j⟩
  refine (pay3_apply (iblk3 V c 1 t) (iblk3 V c 0 t) (iblk3 V c 2 t) p q).trans ?_
  have hq : ((((cfg3.win 3).blk t).view.emb (ix2 p q)) 1).val = q.val := by
    show win3_3.index t (1 : Fin 2) * 64 + 1 * q.val = q.val
    omega
  refine Eq.trans ?_ (biasRes_apply (V c main_v64) b (V c main_v50) (((cfg3.win 3).blk t).view.emb (ix2 p q)) q hq).symm
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h2 : ((cfg3.win 2).blk t).view.emb (ix2 p q) = ((cfg3.win 3).blk t).view.emb (ix2 p q) := by
    funext a; apply Fin.ext
    match a with
    | ⟨0, _⟩ => show win3_2.index t (0 : Fin 2) * 5000 + 1 * p.val = win3_3.index t (0 : Fin 2) * 5000 + 1 * p.val; omega
    | ⟨1, _⟩ => show win3_2.index t (1 : Fin 2) * 64 + 1 * q.val = win3_3.index t (1 : Fin 2) * 64 + 1 * q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  show FloatOps.addf (F := Ideal) (φ := .f32) (FloatOps.addf (F := Ideal) (φ := .f32)
      (V c main_v64 (((cfg3.win 0).blk t).view.emb (ix2 p q))) (V c main_v35 (((cfg3.win 1).blk t).view.emb (ix2 (0 : Fin 1) q))))
      (V c main_v50 (((cfg3.win 2).blk t).view.emb (ix2 p q))) = _
  rw [h0, h1, h2, hb q]

/-- An index of the output array is in point `t`'s block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v65).slice (win3_3.rect t)).set ↔ _
  rw [View.set_slice_whole, Rect.mem_set_unit]
  exact Iff.rfl

/-- Every row block is some point's. -/
theorem idx_onto3 : ∀ r : Fin 10, ∃ t : Fin cfg3.N, win3_3.index t = ![r.val, 0] :=
  (by decide +kernel : ∀ r : Fin 10, ∃ t : Fin grid3.N, win3_3.index t = ![r.val, 0])

/-- Row `r` of the output is in the block of the point that writes row block `r / 5000`: the ten blocks tile the array. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The second pointwise region leaves, in its output array, the second layer's closing step of the neighbour sum and
    the first layer's result it found and of the bias whose row it found. -/
theorem arr3 (c : Dev nD) (b : (⟨Cert.ReferenceIdeal.S64, .f32⟩ : BufTy).Contents (Elt Ideal))
    (hb : ∀ q : Fin 64, V c main_v35 (ValueIdx.ix2 (0 : Fin 1) q) = b (ValueIdx.ix1 q)) :
    (dat3 (F := Ideal) V c).arrAt 3 cfg3.N = Cert.Spec.biasRes (F := Ideal) (V c main_v64) b (V c main_v50) :=
  (dat3 (F := Ideal) V c).arrAt_eq_of_cover 3 (Cert.Spec.biasRes (F := Ideal) (V c main_v64) b (V c main_v50))
    (fun t _ => flushed3 V c b hb t) cover3

end Regions

end Cert.KernelIdeal.RegionBias

end
-- ==== Proof.HostFacts.lean ====
/-
  What the kernel's host operations leave in the buffers, at the boundaries between its stretches of host
  operations and its four pipelined regions.

  Before the first region the host builds, from the edge array and the edge weights, the two edge lists (every
  edge's source and destination node, a self loop appended per node) and the symmetric normalisation, and lays out
  the two weight matrices (transposed) and the two bias vectors (as one-row matrices).  It does so by the same
  operations, in the same order, as the reference program: each buffer read after the prefix is, by unfolding, the
  reference's value of the same stage.  None of these buffers is written again, by a later host operation or by a
  region, so they hold the same values at every later boundary.  Between the regions the host forms a weighted
  neighbour sum of the preceding region's result: the specification's `agg` over the edge lists and the
  normalisation as they stand at that boundary.
-/
import proofs.«110453_j28509992911040_1_alg».proof.Proof.Gen.KernelIdeal.Frame
import proofs.«110453_j28509992911040_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostFacts

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-! ## Before the first region: the host prefix computes the reference's stages -/

/-- No operation of the prefix writes the node features. -/
theorem W3_arg0 : W3 m ρ c (Proc.devRef .tc main_arg0) = m ((c : Thread nD τ).loc main_arg0) := by
  after_results_simp <;> rfl

/-- The first weight matrix, transposed. -/
theorem W3_v32 : W3 m ρ c (Proc.devRef .tc main_v32)
    = Cert.ReferenceIdeal.Read.val_main_v32 (F := F) (m ((c : Thread nD τ).loc main_arg3)) := by
  after_results_simp <;> rfl

/-- The source list: row 0 of the edge array, then every node once (the self loops). -/
theorem W3_v3 : W3 m ρ c (Proc.devRef .tc main_v3)
    = Cert.ReferenceIdeal.Read.val_main_v3 (F := F) (m ((c : Thread nD τ).loc main_arg1)) := by
  after_results_simp <;> rfl

/-- The destination list: row 1 of the edge array, then every node once. -/
theorem W3_v6 : W3 m ρ c (Proc.devRef .tc main_v6)
    = Cert.ReferenceIdeal.Read.val_main_v6 (F := F) (m ((c : Thread nD τ).loc main_arg1)) := by
  after_results_simp <;> rfl

set_option maxHeartbeats 2000000 in
/-- The normalisation `dinv (src e) · w e · dinv (dst e)`: the weighted in-degrees by a scatter-add, their inverse
    square roots where positive (zero elsewhere), gathered at both ends of every edge. -/
theorem W3_v31 : W3 m ρ c (Proc.devRef .tc main_v31)
    = Cert.ReferenceIdeal.Read.val_main_v31 (F := F) (m ((c : Thread nD τ).loc main_arg1)) (m ((c : Thread nD τ).loc main_arg2)) := by
  after_results_simp <;> rfl

/-! ## At the first region's exit: it has none of the three among its arrays -/

theorem W4_v3 : W4 m ρ c (Proc.devRef .tc main_v3)
    = Cert.ReferenceIdeal.Read.val_main_v3 (F := F) (m ((c : Thread nD τ).loc main_arg1)) :=
  (W4_of_ne m ρ c main_v3 (by decide)).trans (W3_v3 m ρ c)

theorem W4_v6 : W4 m ρ c (Proc.devRef .tc main_v6)
    = Cert.ReferenceIdeal.Read.val_main_v6 (F := F) (m ((c : Thread nD τ).loc main_arg1)) :=
  (W4_of_ne m ρ c main_v6 (by decide)).trans (W3_v6 m ρ c)

theorem W4_v31 : W4 m ρ c (Proc.devRef .tc main_v31)
    = Cert.ReferenceIdeal.Read.val_main_v31 (F := F) (m ((c : Thread nD τ).loc main_arg1)) (m ((c : Thread nD τ).loc main_arg2)) :=
  (W4_of_ne m ρ c main_v31 (by decide)).trans (W3_v31 m ρ c)

/-! ## The two neighbour sums -/

set_option maxHeartbeats 2000000 in
/-- The first neighbour sum: rows of the first region's result gathered at the sources, scaled by the
    normalisation, added into a zero array at the destinations. -/
theorem W5_v49 : W5 m ρ c (Proc.devRef .tc main_v49)
    = Cert.Spec.agg (F := F) (W4 m ρ c (Proc.devRef .tc main_v36)) (W4 m ρ c (Proc.devRef .tc main_v3))
        (W4 m ρ c (Proc.devRef .tc main_v6)) (W4 m ρ c (Proc.devRef .tc main_v31)) := by
  after_results_simp <;> rfl

set_option maxHeartbeats 2000000 in
/-- The second neighbour sum, of the third region's result. -/
theorem W8_v64 : W8 m ρ c (Proc.devRef .tc main_v64)
    = Cert.Spec.agg (F := F) (W7 m ρ c (Proc.devRef .tc main_v51)) (W7 m ρ c (Proc.devRef .tc main_v3))
        (W7 m ρ c (Proc.devRef .tc main_v6)) (W7 m ρ c (Proc.devRef .tc main_v31)) := by
  after_results_simp <;> rfl

/-! ## Buffers the later stretches and regions leave alone -/

/-- The host operations between the first two regions write none of the buffers the prefix laid out. -/
theorem W5_of_W4_v3 : W5 m ρ c (Proc.devRef .tc main_v3) = W4 m ρ c (Proc.devRef .tc main_v3) := by
  after_results_simp <;> rfl
theorem W5_of_W4_v6 : W5 m ρ c (Proc.devRef .tc main_v6) = W4 m ρ c (Proc.devRef .tc main_v6) := by
  after_results_simp <;> rfl
theorem W5_of_W4_v31 : W5 m ρ c (Proc.devRef .tc main_v31) = W4 m ρ c (Proc.devRef .tc main_v31) := by
  after_results_simp <;> rfl
theorem W5_of_W4_v33 : W5 m ρ c (Proc.devRef .tc main_v33) = W4 m ρ c (Proc.devRef .tc main_v33) := by
  after_results_simp <;> rfl
theorem W5_of_W4_v34 : W5 m ρ c (Proc.devRef .tc main_v34) = W4 m ρ c (Proc.devRef .tc main_v34) := by
  after_results_simp <;> rfl
theorem W5_of_W4_v35 : W5 m ρ c (Proc.devRef .tc main_v35) = W4 m ρ c (Proc.devRef .tc main_v35) := by
  after_results_simp <;> rfl

/-- Nor do the host operations before the last region write the second bias row or the first layer's result. -/
theorem W8_of_W7_v35 : W8 m ρ c (Proc.devRef .tc main_v35) = W7 m ρ c (Proc.devRef .tc main_v35) := by
  after_results_simp <;> rfl
theorem W8_of_W7_v50 : W8 m ρ c (Proc.devRef .tc main_v50) = W7 m ρ c (Proc.devRef .tc main_v50) := by
  after_results_simp <;> rfl

/-- The second weight matrix, transposed, as the prefix leaves it. -/
theorem W3_v33 : W3 m ρ c (Proc.devRef .tc main_v33)
    = Cert.ReferenceIdeal.Read.val_main_v74 (F := F) (m ((c : Thread nD τ).loc main_arg5)) := by
  after_results_simp <;> rfl

/-- A bias vector laid out as a one-row matrix reads, at `(0, q)`, the vector at `q`. -/
theorem W3_v34 (q : Fin 64) : W3 m ρ c (Proc.devRef .tc main_v34) (ValueIdx.ix2 (0 : Fin 1) q)
    = m ((c : Thread nD τ).loc main_arg4) (ValueIdx.ix1 q) := by
  have h : W3 m ρ c (Proc.devRef .tc main_v34)
      = shapeCast Cert.KernelIdeal.S1x64 (m ((c : Thread nD τ).loc main_arg4)) shapeCasts_S64_S1x64 := by
    after_results_simp <;> rfl
  rw [h]
  exact ValueIdx.shapeCast_a_1a_apply _ _ 0 q

theorem W3_v35 (q : Fin 64) : W3 m ρ c (Proc.devRef .tc main_v35) (ValueIdx.ix2 (0 : Fin 1) q)
    = m ((c : Thread nD τ).loc main_arg6) (ValueIdx.ix1 q) := by
  have h : W3 m ρ c (Proc.devRef .tc main_v35)
      = shapeCast Cert.KernelIdeal.S1x64 (m ((c : Thread nD τ).loc main_arg6)) shapeCasts_S64_S1x64 := by
    after_results_simp <;> rfl
  rw [h]
  exact ValueIdx.shapeCast_a_1a_apply _ _ 0 q

/-- The second region's bias row. -/
theorem W5_v34 : ∀ q : Fin 64, W5 m ρ c (Proc.devRef .tc main_v34) (ValueIdx.ix2 (0 : Fin 1) q)
    = m ((c : Thread nD τ).loc main_arg4) (ValueIdx.ix1 q) := fun q => by
  rw [W5_of_W4_v34 m ρ c, W4_of_ne m ρ c main_v34 (by decide)]
  exact W3_v34 m ρ c q

/-- The third region's weight operand: the second region has it among none of its arrays. -/
theorem W6_v33 : W6 m ρ c (Proc.devRef .tc main_v33)
    = Cert.ReferenceIdeal.Read.val_main_v74 (F := F) (m ((c : Thread nD τ).loc main_arg5)) :=
  calc W6 m ρ c (Proc.devRef .tc main_v33)
    _ = W5 m ρ c (Proc.devRef .tc main_v33) := W6_of_ne m ρ c main_v33 (by decide)
    _ = W4 m ρ c (Proc.devRef .tc main_v33) := W5_of_W4_v33 m ρ c
    _ = W3 m ρ c (Proc.devRef .tc main_v33) := W4_of_ne m ρ c main_v33 (by decide)
    _ = _ := W3_v33 m ρ c

/-! ## At the third region's exit: the edge lists and the normalisation are still the prefix's -/

theorem W7_v3 : W7 m ρ c (Proc.devRef .tc main_v3)
    = Cert.ReferenceIdeal.Read.val_main_v3 (F := F) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := W5_of_W4_v3 m ρ c
    _ = _ := W4_v3 m ρ c

theorem W7_v6 : W7 m ρ c (Proc.devRef .tc main_v6)
    = Cert.ReferenceIdeal.Read.val_main_v6 (F := F) (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := W5_of_W4_v6 m ρ c
    _ = _ := W4_v6 m ρ c

theorem W7_v31 : W7 m ρ c (Proc.devRef .tc main_v31)
    = Cert.ReferenceIdeal.Read.val_main_v31 (F := F) (m ((c : Thread nD τ).loc main_arg1)) (m ((c : Thread nD τ).loc main_arg2)) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := W5_of_W4_v31 m ρ c
    _ = _ := W4_v31 m ρ c

/-! ## The last region's bias row and its residual operand -/

theorem W8_v35 : ∀ q : Fin 64, W8 m ρ c (Proc.devRef .tc main_v35) (ValueIdx.ix2 (0 : Fin 1) q)
    = m ((c : Thread nD τ).loc main_arg6) (ValueIdx.ix1 q) := fun q => by
  rw [W8_of_W7_v35 m ρ c, W7_of_ne m ρ c main_v35 (by decide), W6_of_ne m ρ c main_v35 (by decide),
    W5_of_W4_v35 m ρ c, W4_of_ne m ρ c main_v35 (by decide)]
  exact W3_v35 m ρ c q

/-- The first layer's result is an input of the third region (its first window): the region's exit holds what it
    held at the region's entry. -/
theorem W8_v50 : W8 m ρ c (Proc.devRef .tc main_v50) = W6 m ρ c (Proc.devRef .tc main_v50) :=
  calc W8 m ρ c (Proc.devRef .tc main_v50)
    _ = W7 m ρ c (Proc.devRef .tc main_v50) := W8_of_W7_v50 m ρ c
    _ = W6 m ρ c (Proc.devRef .tc main_v50) :=
        (W7_arr m ρ c 0).trans (((dat2 (V6 m ρ) c).arrAt_in 0 rfl _).trans (A_eq2 (V6 m ρ) c 0))

end Cert.KernelIdeal.HostFacts

end
-- ==== Proof.lean ====
/-
  Two layers of graph convolution with a residual: the kernel against its reference, on the extended reals.

  Both programs take node features x, an edge list ei with weights ew, and two layers' weights and biases.  Both
  append a self loop of weight one per node, take each node's weighted in-degree deg, dinv = deg^(-1/2) where
  deg > 0 and 0 elsewhere, and normalise edge e by nrm e = dinv (src e) · w e · dinv (dst e).  A layer maps node
  features h to  (∑ over edges e into a node of (h · Wᵀ)(src e) · nrm e) + b ; the result is
  h2 + h1 with h1 = max(layer₁ x, 0) and h2 = layer₂ h1.

  The kernel computes the two dense products h · Wᵀ and the two closing steps (bias and maximum; bias and residual)
  in four gridded regions over row blocks of 5000 nodes, and leaves the edge bookkeeping and the neighbour sums to host
  operations; the reference is host operations throughout, and computes the normalisation once per layer.  At the
  ideal instance a change of float format is the identity and a matrix-unit product into a zero accumulator is the
  same finite sum as the host's contraction, so region by region the kernel's arrays are the reference's stages:
  the fold of the kernel's buffer contents, read back from the result, is the reference's result stage of the
  arguments (`kernel_value`).  No law of the extended reals beyond the definitions is used, so the
  precondition (finite inputs) is never opened.  The idealization rewrote nothing, so `preserves` is trivial; the
  kernels' frames are the generated ones, and the reference's frame is its generated run.
-/
import proofs.«110453_j28509992911040_1_alg».proof.Defs
import proofs.«110453_j28509992911040_1_alg».proof.Proof.Gen.Kernel
import proofs.«110453_j28509992911040_1_alg».proof.Proof.Gen.Kernel.Skeleton
import proofs.«110453_j28509992911040_1_alg».proof.Proof.Gen.Kernel.Launch
import proofs.«110453_j28509992911040_1_alg».proof.Proof.Gen.Kernel.Points
import proofs.«110453_j28509992911040_1_alg».proof.Proof.Gen.Kernel.Frame
import proofs.«110453_j28509992911040_1_alg».proof.Proof.Gen.KernelIdeal
import proofs.«110453_j28509992911040_1_alg».proof.Proof.Gen.KernelIdeal.Skeleton
import proofs.«110453_j28509992911040_1_alg».proof.Proof.Gen.KernelIdeal.Launch
import proofs.«110453_j28509992911040_1_alg».proof.Proof.Gen.KernelIdeal.Points
import proofs.«110453_j28509992911040_1_alg».proof.Proof.Gen.KernelIdeal.Frame
import proofs.«110453_j28509992911040_1_alg».proof.Proof.Gen.ReferenceIdeal
import proofs.«110453_j28509992911040_1_alg».proof.Proof.Gen.Pre_finite_inputs
import proofs.«110453_j28509992911040_1_alg».proof.Proof.Gen.ReferenceIdeal.Run
import proofs.«110453_j28509992911040_1_alg».proof.Proof.Gen.ReferenceIdeal.Read
import proofs.«110453_j28509992911040_1_alg».proof.Proof.Spec
import proofs.«110453_j28509992911040_1_alg».proof.Proof.KernelRun
import proofs.«110453_j28509992911040_1_alg».proof.Proof.Assembly
import proofs.«110453_j28509992911040_1_alg».proof.Proof.RegionMatmul
import proofs.«110453_j28509992911040_1_alg».proof.Proof.RegionBias
import proofs.«110453_j28509992911040_1_alg».proof.Proof.HostFacts
import Idealize.ShloMosaic.Adequacy
import Idealize.ShloMosaic.Init

set_option maxRecDepth 16384

noncomputable section

namespace Cert.Proof

open Idealize.ShloMosaic Idealize.ShloMosaic.TcCoe Idealize.SL.Sem

/-- What the idealized kernel's result buffer holds at the end of the fold: the reference's result stage of the
    launch contents of the arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 m ρ c (Proc.devRef .tc Cert.KernelIdeal.main_v65)
      = Cert.ReferenceIdeal.Read.val_main_v92 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)) :=
  Cert.KernelIdeal.Assembly.result m ρ c
    (Cert.KernelIdeal.Assembly.first_layer m ρ c
      (Cert.KernelIdeal.RegionMatmul.arr0 (Cert.KernelIdeal.Gen.V3 m ρ) c)
      (Cert.KernelIdeal.RegionBias.arr1 (Cert.KernelIdeal.Gen.V5 m ρ) c _ (Cert.KernelIdeal.HostFacts.W5_v34 m ρ c))
      (Cert.KernelIdeal.HostFacts.W3_arg0 m ρ c) (Cert.KernelIdeal.HostFacts.W3_v32 m ρ c)
      (Cert.KernelIdeal.HostFacts.W4_v3 m ρ c) (Cert.KernelIdeal.HostFacts.W4_v6 m ρ c) (Cert.KernelIdeal.HostFacts.W4_v31 m ρ c)
      (Cert.KernelIdeal.HostFacts.W5_v49 m ρ c))
    (Cert.KernelIdeal.RegionMatmul.arr2 (Cert.KernelIdeal.Gen.V6 m ρ) c)
    (Cert.KernelIdeal.RegionBias.arr3 (Cert.KernelIdeal.Gen.V8 m ρ) c _ (Cert.KernelIdeal.HostFacts.W8_v35 m ρ c))
    (Cert.KernelIdeal.HostFacts.W6_v33 m ρ c)
    (Cert.KernelIdeal.HostFacts.W7_v3 m ρ c) (Cert.KernelIdeal.HostFacts.W7_v6 m ρ c) (Cert.KernelIdeal.HostFacts.W7_v31 m ρ c)
    (Cert.KernelIdeal.HostFacts.W8_v64 m ρ c) (Cert.KernelIdeal.HostFacts.W8_v50 m ρ c)

/-- The word-level kernel runs and leaves its arguments as launched: the generated frame. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve beyond the program's own text. -/
theorem preserves : Cert.preserves_Kernel_KernelIdeal := trivial

/-- From memories agreeing on the arguments both idealized programs end with the same array: the reference's result
    stage of the arguments — the kernel's by the fold read back, the reference's by its generated run. -/
theorem algebraic : Cert.algebraic_KernelIdeal_ReferenceIdeal := by
  intro m ρ m' ρ' _ hagree
  refine ⟨fun c => Cert.ReferenceIdeal.Read.val_main_v92 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)), ?_, ?_⟩
  · exact (θ_run Cert.KernelIdeal.defs _ _).mono
      (fun r h c => ⟨(h c).1.trans (kernel_value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v92_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
